-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x2048 : Shape := ⟨2, ![1024, 2048]⟩
abbrev S2048 : Shape := ⟨1, ![2048]⟩
abbrev S512x4096 : Shape := ⟨2, ![512, 4096]⟩
abbrev S4096 : Shape := ⟨1, ![4096]⟩
abbrev S4096x512 : Shape := ⟨2, ![4096, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S4096x512 .f32) (main_v33 : IVec S_ 1) : IVec S_ 1 :=
  let main_v34 : FVec F S4096x512 .f32 := Host.absf main_arg7
  let main_cst_12 : FVec F S_ .f32 := constant S_ .f32 0x7F800000#32
  let main_v35 : FVec F S4096x512 .f32 := broadcastInDim S4096x512 ![] bcast_S_S4096x512 main_cst_12
  let main_v36 : IVec S4096x512 1 := cmpf .olt main_v34 main_v35
  let main_c_13 : IVec S_ 1 := constantI S_ 1 1#1
  let main_v37 : IVec S_ 1 := (fun x v => Host.reduce IntOp.andi x v reducesTo_S4096x512_S_d0_1 h_S_) main_v36 main_c_13
  let main_v38 : IVec S_ 1 := andi main_v33 main_v37
  main_v38

def fn_part1 {F : FTy → Type} [FloatOps F] (main_arg4 : FVec F S2048 .f32) (main_arg5 : FVec F S512x4096 .f32) (main_arg6 : FVec F S4096 .f32) (main_arg7 : FVec F S4096x512 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S16384x512 .f32) (main_arg3 : FVec F S1024x2048 .f32) (main_arg4 : FVec F S2048 .f32) (main_arg5 : FVec F S512x4096 .f32) (main_arg6 : FVec F S4096 .f32) (main_arg7 : FVec F S4096x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_v13 main_v16
-- ==== Kernel.lean ====
abbrev S16384x512 : Shape := ⟨2, ![16384, 512]⟩
abbrev S1024x2048 : Shape := ⟨2, ![1024, 2048]⟩
abbrev S2048 : Shape := ⟨1, ![2048]⟩
abbrev S512x4096 : Shape := ⟨2, ![512, 4096]⟩
abbrev S4096 : Shape := ⟨1, ![4096]⟩
abbrev S4096x512 : Shape := ⟨2, ![4096, 512]⟩
abbrev S512x2048 : Shape := ⟨2, ![512, 2048]⟩
abbrev S1x2048 : Shape := ⟨2, ![1, 2048]⟩
abbrev S1x4096 : Shape := ⟨2, ![1, 4096]⟩
abbrev S16384x4096 : Shape := ⟨2, ![16384, 4096]⟩
abbrev S128x512 : Shape := ⟨2, ![128, 512]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩

abbrev nBuf : Space → Nat
  | .hbm => 19
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x2048, .f32⟩
  | .hbm, ⟨4, _⟩ => ⟨S2048, .f32⟩
  | .hbm, ⟨5, _⟩ => ⟨S512x4096, .f32⟩
  | .hbm, ⟨6, _⟩ => ⟨S4096, .f32⟩
  | .hbm, ⟨7, _⟩ => ⟨S4096x512, .f32⟩
  | .hbm, ⟨8, _⟩ => ⟨S512x2048, .f32⟩
  | .hbm, ⟨9, _⟩ => ⟨S512x2048, .bf16⟩
  | .hbm, ⟨10, _⟩ => ⟨S512x2048, .f32⟩
  | .hbm, ⟨11, _⟩ => ⟨S512x2048, .bf16⟩
  | .hbm, ⟨12, _⟩ => ⟨S512x4096, .bf16⟩
  | .hbm, ⟨13, _⟩ => ⟨S4096x512, .bf16⟩
  | .hbm, ⟨14, _⟩ => ⟨S1x2048, .f32⟩
  | .hbm, ⟨15, _⟩ => ⟨S1x4096, .f32⟩
  | .hbm, ⟨16, _⟩ => ⟨S16384x512, .f32⟩
  | .hbm, ⟨17, _⟩ => ⟨S16384x512, .f32⟩
  | .hbm, ⟨18, _⟩ => ⟨S16384x4096, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x4096, .bf16⟩
  | .local _ .vmem, ⟨10, _⟩ => ⟨S1x4096, .f32⟩
  | .local _ .vmem, ⟨11, _⟩ => ⟨S4096x512, .bf16⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x4096, .f32⟩
  | .local _ .vmem, ⟨17, _⟩ => ⟨S128x4096, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x2048_S512x2048_0_0 : S1024x2048.Slices ![0, 0] S512x2048
  bitsLt_bf16_f32 : FTy.bits .bf16 < FTy.bits .f32
  slices_S1024x2048_S512x2048_512_0 : S1024x2048.Slices ![512, 0] S512x2048
  shapeCasts_S2048_S1x2048 : S2048.ShapeCasts S1x2048
  shapeCasts_S4096_S1x4096 : S4096.ShapeCasts S1x4096
  inb_S128x512_S128x512_0_0 : ∀ a, (![0, 0] : Fin 2 → Nat) a + S128x512.size a ≤ S128x512.size a
  h_S128x512 : 0 < S128x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  dot_S128x512_S512x2048_S128x2048_1_0_0_1_n_n_wf : DotDims.WF S128x512 S512x2048 S128x2048 [1] [0] [0] [1] [] []
  dot_S128x512_S512x4096_S128x4096_1_0_0_1_n_n_wf : DotDims.WF S128x512 S512x4096 S128x4096 [1] [0] [0] [1] [] []
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S16384x512.size a
  hwx0_0 : ∀ i : grid0.Coords, EltTy.bits .f32 = 32 ∨ (Rect.block (s := S16384x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S16384x512.size a
  hwx0_1 : ∀ i : grid0.Coords, EltTy.bits .f32 = 32 ∨ (Rect.block (s := S16384x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S16384x512.size a
  hwx0_2 : ∀ i : grid0.Coords, EltTy.bits .f32 = 32 ∨ (Rect.block (s := S16384x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S512x4096.size a
  hwx0_6 : ∀ i : grid0.Coords, EltTy.bits .bf16 = 32 ∨ (Rect.block (s := S512x4096) S512x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x512.size a ≤ S4096x512.size a
  hwx0_8 : ∀ i : grid0.Coords, EltTy.bits .bf16 = 32 ∨ (Rect.block (s := S4096x512) S4096x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S16384x512.size a
  hwx0_9 : ∀ i : grid0.Coords, EltTy.bits .f32 = 32 ∨ (Rect.block (s := S16384x512) S128x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S16384x512.size a
  hwx0_10 : ∀ i : grid0.Coords, EltTy.bits .f32 = 32 ∨ (Rect.block (s := S16384x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x4096.size a ≤ S16384x4096.size a
  hwx0_11 : ∀ i : grid0.Coords, EltTy.bits .f32 = 32 ∨ (Rect.block (s := S16384x4096) S128x4096.size (cc0_transform_11 i) (hinb0_11 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S4096x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S128x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8_2) S128x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x2048 : Shape := ⟨2, ![1024, 2048]⟩
abbrev S2048 : Shape := ⟨1, ![2048]⟩
abbrev S512x4096 : Shape := ⟨2, ![512, 4096]⟩
abbrev S4096 : Shape := ⟨1, ![4096]⟩
abbrev S4096x512 : Shape := ⟨2, ![4096, 512]⟩
abbrev S16384x1024 : Shape := ⟨2, ![16384, 1024]⟩
abbrev S16384x2048 : Shape := ⟨2, ![16384, 2048]⟩
abbrev S1x2048 : Shape := ⟨2, ![1, 2048]⟩
abbrev S_ : Shape := ⟨0, ![]⟩
abbrev S16384x4096 : Shape := ⟨2, ![16384, 4096]⟩
abbrev S1x4096 : Shape := ⟨2, ![1, 4096]⟩
abbrev S16384 : Shape := ⟨1, ![16384]⟩
abbrev S16384x1 : Shape := ⟨2, ![16384, 1]⟩

abbrev nBuf : Space → Nat
  | .hbm => 70
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x2048, .f32⟩
  | .hbm, ⟨4, _⟩ => ⟨S2048, .f32⟩
  | .hbm, ⟨5, _⟩ => ⟨S512x4096, .f32⟩
  | .hbm, ⟨6, _⟩ => ⟨S4096, .f32⟩
  | .hbm, ⟨7, _⟩ => ⟨S4096x512, .f32⟩
  | .hbm, ⟨8, _⟩ => ⟨S16384x1024, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x4096, .f32⟩
  | .hbm, ⟨43, _⟩ => ⟨S1x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S16384x1, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x4096, .f32⟩
  | .hbm, ⟨59, _⟩ => ⟨S16384x4096, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  dot_S16384x1024_S1024x2048_S16384x2048_1_0_0_1_n_n_wf : DotDims.WF S16384x1024 S1024x2048 S16384x2048 [1] [0] [0] [1] [] []
  dot_S16384x512_S512x4096_S16384x4096_1_0_0_1_n_n_wf : DotDims.WF S16384x512 S512x4096 S16384x4096 [1] [0] [0] [1] [] []
  dot_S16384x4096_S4096x512_S16384x512_1_0_0_1_n_n_wf : DotDims.WF S16384x4096 S4096x512 S16384x512 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.Spec.lean ====
/-
  The mathematics both programs compute, one batch row at a time, over the extended reals.

  For a row with input x, hidden state h and cell state c (each of 512 entries):
    gate j   = (Σ_k x k · W₁ k j + Σ_k h k · W₂ k j) + b j                 (2048 gate pre-activations; W₁, W₂ the two halves
                                                                             of the 1024-row gate matrix)
    logit n  = Σ_k h k · A k n + a n                                        (4096 attention scores)
    weight n = exp (logit n − max_n' logit n') / Σ_n' exp (logit n' − max)  (their softmax)
    read q   = Σ_n weight n · M n q                                         (the memory read)
    cell q   = (σ(gate (512+q)) · c q + σ(gate q) · tanh (gate (1024+q))) + λ · read q
    hidden q = σ(gate (1536+q)) · tanh (cell q)
  with σ the logistic function and λ the constant both programs multiply the read by.
  The only law needed between the two programs' spellings is that a sum over 1024 terms is the sum of its two halves.
-/
import Idealize.ShloMosaic.PureOps.Ideal
import Idealize.ShloMosaic.Lib.ValueIdx
import Idealize.ShloMosaic.PureOps.Ideal.Laws

noncomputable section

namespace Cert.Row

open Idealize.ShloMosaic Idealize.ShloMosaic.ValueIdx

/-- Position `k` of the first half of a 1024-long axis. -/
def lo (k : Fin 512) : Fin 1024 := ⟨k.val, by omega⟩
/-- Position `k` of the second half of a 1024-long axis. -/
def hi (k : Fin 512) : Fin 1024 := ⟨512 + k.val, by omega⟩

/-- A sum over 1024 terms is the sum over its first 512 plus the sum over its last 512 (in any additive commutative monoid:
    no cancellation, so it holds on the extended reals). -/
theorem sum_halves {M : Type*} [AddCommMonoid M] (f : Fin 1024 → M) :
    ∑ k : Fin 1024, f k = ∑ k : Fin 512, f (lo k) + ∑ k : Fin 512, f (hi k) := by
  have h := Fin.sum_univ_add (M := M) (a := 512) (b := 512) (fun i => f i)
  refine h.trans ?_
  congr 1

/-- Gate column `o + q` for `q < 512` and a block offset `o ≤ 1536`. -/
def col (o : Nat) (ho : o + 512 ≤ 2048) (q : Fin 512) : Fin 2048 := ⟨o + q.val, by omega⟩

section
variable (x h c : Fin 512 → EReal) (W₁ W₂ : Fin 512 → Fin 2048 → EReal) (b : Fin 2048 → EReal)
  (A : Fin 512 → Fin 4096 → EReal) (a : Fin 4096 → EReal) (M : Fin 4096 → Fin 512 → EReal)

/-- A gate pre-activation: the input's and the hidden state's contractions with the two halves of the gate matrix, plus the bias. -/
def gate (j : Fin 2048) : EReal := ((∑ k : Fin 512, x k * W₁ k j) + (∑ k : Fin 512, h k * W₂ k j)) + b j

/-- An attention score. -/
def logit (n : Fin 4096) : EReal := (∑ k : Fin 512, h k * A k n) + a n

/-- The largest of 4096 values, folded from the value of the f32 word for −∞. -/
def top (l : Fin 4096 → EReal) : EReal := (Finset.univ : Finset (Fin 4096)).fold max (Ideal.ofBits .f32 0xFF800000#32) l

/-- The fold's starting value is below the maximum. -/
theorem init_le_top (l : Fin 4096 → EReal) : Ideal.ofBits .f32 0xFF800000#32 ≤ top l :=
  (Finset.le_fold_max _).mpr (Or.inl le_rfl)

/-- The unnormalized softmax weight. -/
def ex (l : Fin 4096 → EReal) (n : Fin 4096) : EReal := Ideal.exp (l n - top l)

/-- The softmax weight. -/
def weight (l : Fin 4096 → EReal) (n : Fin 4096) : EReal := Ideal.div (ex l n) (∑ n' : Fin 4096, ex l n')

/-- The memory read: the softmax weights of the row's scores contracted with the memory matrix. -/
def read (q : Fin 512) : EReal := ∑ n : Fin 4096, weight (logit h A a) n * M n q

/-- The new cell state. -/
def cell (q : Fin 512) : EReal :=
  (Ideal.logistic (gate x h W₁ W₂ b (col 512 (by omega) q)) * c q
      + Ideal.logistic (gate x h W₁ W₂ b (col 0 (by omega) q)) * Ideal.tanh (gate x h W₁ W₂ b (col 1024 (by omega) q)))
    + Ideal.ofBits .f32 0x3DCCCCCD#32 * read h A a M q

/-- The new hidden state. -/
def hidden (q : Fin 512) : EReal :=
  Ideal.logistic (gate x h W₁ W₂ b (col 1536 (by omega) q)) * Ideal.tanh (cell x h c W₁ W₂ b A a M q)

end

/-! ## Rows of arrays -/

/-- Row `p` of a two-axis array, as a function of the column. Applied to no row it is the array as a function of row and column. -/
def rowOf {A B : Nat} (x : (⟨2, ![A, B]⟩ : Shape).Idx → EReal) (p : Fin A) : Fin B → EReal := fun k => x (ix2 p k)

/-- A one-axis array as a function of its coordinate. -/
def vecOf {n : Nat} (x : (⟨1, ![n]⟩ : Shape).Idx → EReal) : Fin n → EReal := fun j => x (ix1 j)

section
variable (X H C : (⟨2, ![16384, 512]⟩ : Shape).Idx → EReal) (W : (⟨2, ![1024, 2048]⟩ : Shape).Idx → EReal)
  (Bg : (⟨1, ![2048]⟩ : Shape).Idx → EReal) (WA : (⟨2, ![512, 4096]⟩ : Shape).Idx → EReal)
  (BA : (⟨1, ![4096]⟩ : Shape).Idx → EReal) (MM : (⟨2, ![4096, 512]⟩ : Shape).Idx → EReal)

/-- The attention weights of every batch row: entry (r, n) is the softmax weight n of row r's scores. -/
def attnAll : (⟨2, ![16384, 4096]⟩ : Shape).Idx → EReal := fun i =>
  weight (logit (rowOf H (i 0)) (rowOf WA) (vecOf BA)) (i 1)

/-- The new cell state of every batch row. -/
def cellAll : (⟨2, ![16384, 512]⟩ : Shape).Idx → EReal := fun i =>
  cell (rowOf X (i 0)) (rowOf H (i 0)) (rowOf C (i 0)) (fun k => rowOf W (lo k)) (fun k => rowOf W (hi k)) (vecOf Bg)
    (rowOf WA) (vecOf BA) (rowOf MM) (i 1)

/-- The new hidden state of every batch row. -/
def hiddenAll : (⟨2, ![16384, 512]⟩ : Shape).Idx → EReal := fun i =>
  hidden (rowOf X (i 0)) (rowOf H (i 0)) (rowOf C (i 0)) (fun k => rowOf W (lo k)) (fun k => rowOf W (hi k)) (vecOf Bg)
    (rowOf WA) (vecOf BA) (rowOf MM) (i 1)

end

end Cert.Row

end
-- ==== Proof.LibPlainDot.lean ====
/-
  A plain matrix product read at an entry.

  For a contraction of an [A, K] array with a [K, B] array over the shared axis — no batch axes, the rows of the left
  operand and the columns of the right operand kept — the (p, q) entry is the sum over k < K of left (p, k) times
  right (k, q). This holds for the product taken on the host and, into a zero accumulator, for the product taken in the
  kernel; both are stated here as sums over `Fin K`.
-/
import Idealize.ShloMosaic.Lib.ValueIdx
import Idealize.ShloMosaic.PureOps.Ideal.Laws

noncomputable section
open scoped BigOperators
namespace Cert.PlainDot
open Idealize.ShloMosaic Idealize.ShloMosaic.ValueIdx

variable {A K B : Nat}

/-- The dimension numbers of an [A, K] by [K, B] product. -/
abbrev Dot2 (A K B : Nat) : Type :=
  DotDims (⟨2, ![A, K]⟩ : Shape) (⟨2, ![K, B]⟩ : Shape) (⟨2, ![A, B]⟩ : Shape)

/-- The left operand's second axis meets the right operand's first; the other two axes are kept; nothing is batched. -/
structure IsPlain (d : Dot2 A K B) : Prop where
  lc : d.lhsContracting = [1]
  rc : d.rhsContracting = [0]
  ln : d.lhsNonContracting = [0]
  rn : d.rhsNonContracting = [1]
  lb : d.lhsBatch = []
  rb : d.rhsBatch = []

section Coordinates
variable (wf : DotDims.WF (⟨2, ![A, K]⟩ : Shape) (⟨2, ![K, B]⟩ : Shape) (⟨2, ![A, B]⟩ : Shape) [1] [0] [0] [1] [] [])

/-- The left operand's row is the entry's row. -/
theorem lhs0 (i : (⟨2, ![A, B]⟩ : Shape).Idx) (q : (⟨[1], [0], [0], [1], [], [], wf⟩ : Dot2 A K B).contr.Idx) :
    ((⟨[1], [0], [0], [1], [], [], wf⟩ : Dot2 A K B).lhsIdx i q 0).val = (i 0).val := by
  unfold DotDims.lhsIdx
  rw [dif_neg (show ¬(0 : Fin 2) ∈ (⟨[1], [0], [0], [1], [], [], wf⟩ : Dot2 A K B).lhsBatch from List.not_mem_nil),
    dif_pos (show (0 : Fin 2) ∈ (⟨[1], [0], [0], [1], [], [], wf⟩ : Dot2 A K B).lhsNonContracting from List.mem_singleton.mpr rfl)]
  rfl

/-- The left operand's column is the contracted index. -/
theorem lhs1 (i : (⟨2, ![A, B]⟩ : Shape).Idx) (q : (⟨[1], [0], [0], [1], [], [], wf⟩ : Dot2 A K B).contr.Idx) :
    ((⟨[1], [0], [0], [1], [], [], wf⟩ : Dot2 A K B).lhsIdx i q 1).val = (q ⟨0, Nat.one_pos⟩).val :=
  (⟨[1], [0], [0], [1], [], [], wf⟩ : Dot2 A K B).lhsIdx_val_of_single rfl i q

/-- The right operand's row is the contracted index. -/
theorem rhs0 (i : (⟨2, ![A, B]⟩ : Shape).Idx) (q : (⟨[1], [0], [0], [1], [], [], wf⟩ : Dot2 A K B).contr.Idx) :
    ((⟨[1], [0], [0], [1], [], [], wf⟩ : Dot2 A K B).rhsIdx i q 0).val = (q ⟨0, Nat.one_pos⟩).val :=
  (⟨[1], [0], [0], [1], [], [], wf⟩ : Dot2 A K B).rhsIdx_val_of_single rfl i q

/-- The right operand's column is the entry's column. -/
theorem rhs1 (i : (⟨2, ![A, B]⟩ : Shape).Idx) (q : (⟨[1], [0], [0], [1], [], [], wf⟩ : Dot2 A K B).contr.Idx) :
    ((⟨[1], [0], [0], [1], [], [], wf⟩ : Dot2 A K B).rhsIdx i q 1).val = (i 1).val := by
  unfold DotDims.rhsIdx
  rw [dif_neg (show ¬(1 : Fin 2) ∈ (⟨[1], [0], [0], [1], [], [], wf⟩ : Dot2 A K B).rhsBatch from List.not_mem_nil),
    dif_pos (show (1 : Fin 2) ∈ (⟨[1], [0], [0], [1], [], [], wf⟩ : Dot2 A K B).rhsNonContracting from List.mem_singleton.mpr rfl)]
  rfl

end Coordinates

/-- The sum over the contracted index, re-indexed by `Fin K`, with the operand entries named by their coordinates. -/
theorem sum_contr (d : Dot2 A K B) (hd : IsPlain d) (l : (⟨2, ![A, K]⟩ : Shape).Idx → EReal)
    (r : (⟨2, ![K, B]⟩ : Shape).Idx → EReal) (i : (⟨2, ![A, B]⟩ : Shape).Idx) :
    ∑ q : d.contr.Idx, l (d.lhsIdx i q) * r (d.rhsIdx i q) = ∑ k : Fin K, l (ix2 (i 0) k) * r (ix2 k (i 1)) := by
  obtain ⟨lc, rc, ln, rn, lb, rb, wf⟩ := d
  obtain ⟨h1, h2, h3, h4, h5, h6⟩ := hd
  dsimp only at h1 h2 h3 h4 h5 h6
  subst h1 h2 h3 h4 h5 h6
  rw [← Equiv.sum_comp (contrEquiv1 (⟨[1], [0], [0], [1], [], [], wf⟩ : Dot2 A K B) K rfl rfl).symm]
  refine Finset.sum_congr rfl fun k _ => ?_
  have hk := contrEquiv1_symm_val (⟨[1], [0], [0], [1], [], [], wf⟩ : Dot2 A K B) K rfl rfl k
  have el : (⟨[1], [0], [0], [1], [], [], wf⟩ : Dot2 A K B).lhsIdx i
      ((contrEquiv1 (⟨[1], [0], [0], [1], [], [], wf⟩ : Dot2 A K B) K rfl rfl).symm k) = ix2 (i 0) k :=
    funext fun a => Fin.ext (by
      match a with
      | ⟨0, _⟩ => exact lhs0 wf _ _
      | ⟨1, _⟩ => exact (lhs1 wf _ _).trans hk)
  have er : (⟨[1], [0], [0], [1], [], [], wf⟩ : Dot2 A K B).rhsIdx i
      ((contrEquiv1 (⟨[1], [0], [0], [1], [], [], wf⟩ : Dot2 A K B) K rfl rfl).symm k) = ix2 k (i 1) :=
    funext fun a => Fin.ext (by
      match a with
      | ⟨0, _⟩ => exact (rhs0 wf _ _).trans hk
      | ⟨1, _⟩ => exact rhs1 wf _ _)
  exact congrArg₂ (· * ·) (congrArg l el) (congrArg r er)

/-- The host's product at an entry. -/
theorem dotGeneral_plain {φ₁ φ₂ : FTy} (d : Dot2 A K B) (hd : IsPlain d) (prec : Option ContractPrecision) (sched : HostSchedule)
    (l : FVec Ideal (⟨2, ![A, K]⟩ : Shape) φ₁) (r : FVec Ideal (⟨2, ![K, B]⟩ : Shape) φ₂) (i : (⟨2, ![A, B]⟩ : Shape).Idx) :
    FloatOps.dotGeneral d prec sched l r i = ∑ k : Fin K, l (ix2 (i 0) k) * r (ix2 k (i 1)) := by
  rw [Ideal.dotGeneral_apply]
  exact sum_contr d hd l r i

/-- The kernel's product into a zero accumulator at an entry. -/
theorem matmul_zero_plain {φ₁ φ₂ : FTy} (d : Dot2 A K B) (hd : IsPlain d) (prec : Option ContractPrecision)
    (l : FVec Ideal (⟨2, ![A, K]⟩ : Shape) φ₁) (r : FVec Ideal (⟨2, ![K, B]⟩ : Shape) φ₂) (i : (⟨2, ![A, B]⟩ : Shape).Idx) :
    FloatOps.matmul d prec l r (constant (⟨2, ![A, B]⟩ : Shape) .f32 0x00000000#32) i
      = ∑ k : Fin K, l (ix2 (i 0) k) * r (ix2 k (i 1)) := by
  rw [Ideal.matmul_constant_zero_apply]
  exact sum_contr d hd l r i

end Cert.PlainDot
-- ==== Proof.KernelRow.lean ====
/-
  The kernel's arithmetic at one entry of a block.

  A block holds 128 batch rows. Every value the body computes at block entry (p, q) depends on row p of the block's
  input, hidden-state and cell-state tiles and on the whole weight arrays: the gate pre-activations are two matrix
  products into zero accumulators plus a broadcast bias; the attention scores likewise; the row maximum and the row sum
  are lane reductions over the 4096 scores of row p; the read is a third matrix product. Read at (p, q) each of them is
  the corresponding row function of the specification.
-/
import proofs.«136633_j86174223827709_2_alg».proof.Proof.Gen.KernelIdeal.Skeleton
import proofs.«136633_j86174223827709_2_alg».proof.Proof.Spec
import proofs.«136633_j86174223827709_2_alg».proof.Proof.LibPlainDot
import Idealize.ShloMosaic.Lib.ValueIdx
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx Cert.Row

/-! ## The three contractions are plain matrix products -/

theorem plain_gate : PlainDot.IsPlain dot_S128x512_S512x2048_S128x2048_1_0_0_1_n_n := ⟨rfl, rfl, rfl, rfl, rfl, rfl⟩
theorem plain_score : PlainDot.IsPlain dot_S128x512_S512x4096_S128x4096_1_0_0_1_n_n := ⟨rfl, rfl, rfl, rfl, rfl, rfl⟩
theorem plain_read : PlainDot.IsPlain dot_S128x4096_S4096x512_S128x512_1_0_0_1_n_n := ⟨rfl, rfl, rfl, rfl, rfl, rfl⟩

/-! ## Layout steps read at an entry -/

/-- A one-row array broadcast down B rows, read at (p, j), is the row's entry j. -/
theorem bcast_row {A B : Nat} (hA : A ≠ 1) (hB : B ≠ 1) (v : (⟨2, ![1, B]⟩ : Shape).Idx → EReal)
    (h : (⟨2, ![1, B]⟩ : Shape).Broadcasts ⟨2, ![A, B]⟩) (p : Fin A) (j : Fin B) :
    broadcastTo (⟨2, ![A, B]⟩ : Shape) v h (ix2 p j) = v (ix2 0 j) :=
  broadcastTo_apply v h (ix2 p j) (ix2 0 j) (fun a => match a with
    | ⟨0, _⟩ => by show (0 : Nat) = (if (1 : Nat) = 1 then 0 else _); rw [if_pos rfl]
    | ⟨1, _⟩ => by show j.val = (if B = 1 then 0 else j.val); rw [if_neg hB])

/-- A column of per-row values ([A] viewed as [A, 1]) broadcast along B columns, read at (p, n), is row p's value. -/
theorem bcast_col {A B : Nat} (hA : A ≠ 1) (v : (⟨1, ![A]⟩ : Shape).Idx → EReal)
    (h1 : (⟨1, ![A]⟩ : Shape).ShapeCasts ⟨2, ![A, 1]⟩) (h2 : (⟨2, ![A, 1]⟩ : Shape).Broadcasts ⟨2, ![A, B]⟩) (p : Fin A) (n : Fin B) :
    broadcastTo (⟨2, ![A, B]⟩ : Shape) (shapeCast (⟨2, ![A, 1]⟩ : Shape) v h1) h2 (ix2 p n) = v (ix1 p) := by
  refine (broadcastTo_apply _ h2 (ix2 p n) (ix2 p 0) (fun a => match a with
    | ⟨0, _⟩ => by show p.val = (if A = 1 then 0 else p.val); rw [if_neg hA]
    | ⟨1, _⟩ => by show (0 : Nat) = (if (1 : Nat) = 1 then 0 else _); rw [if_pos rfl])).trans ?_
  exact shapeCast_apply v h1 (ix2 p 0) (ix1 p) (by
    rw [Shape.rowMajor_val_one, Shape.rowMajor_val_two]; show p.val = p.val * 1 + 0; omega)

/-- Columns o … o+511 of a [128, 2048] array, read at (p, q), are the array at (p, o + q). -/
theorem slice_cols (o : Nat) (ho : o + 512 ≤ 2048) (g : S128x2048.Idx → EReal) (h : S128x2048.Slices ![0, o] S128x512)
    (p : Fin 128) (q : Fin 512) :
    extractStridedSlice S128x512 ![0, o] g h (ix2 p q) = g (ix2 p (col o ho q)) :=
  extractStridedSlice_apply ![0, o] g h (ix2 p q) (ix2 p (col o ho q)) (fun a => match a with
    | ⟨0, _⟩ => by show p.val = 0 + p.val; omega
    | ⟨1, _⟩ => by show o + q.val = o + q.val; rfl)

/-! ## The gate pre-activations -/

theorem gate_at (x0 x1 : Vec Ideal S128x512 .f32) (x3 x4 : Vec Ideal S512x2048 .bf16) (x5 : Vec Ideal S1x2048 .f32)
    (p : Fin 128) (j : Fin 2048) :
    k0_pay5 (F := Ideal) x0 x1 x3 x4 x5 (ix2 p j) = gate (rowOf x0 p) (rowOf x1 p) (rowOf x3) (rowOf x4) (rowOf x5 0) j := by
  have tree : k0_pay5 (F := Ideal) x0 x1 x3 x4 x5
      = addf (addf (matmul dot_S128x512_S512x2048_S128x2048_1_0_0_1_n_n none (truncf .bf16 x0 bitsLt_bf16_f32) (shapeCast S512x2048 x3 shapeCasts_S512x2048_S512x2048) (constant S128x2048 .f32 0x00000000#32))
          (matmul dot_S128x512_S512x2048_S128x2048_1_0_0_1_n_n none (truncf .bf16 x1 bitsLt_bf16_f32) (shapeCast S512x2048 x4 shapeCasts_S512x2048_S512x2048) (constant S128x2048 .f32 0x00000000#32)))
        (broadcastTo S128x2048 (shapeCast S1x2048 x5 shapeCasts_S1x2048_S1x2048) broadcasts_S1x2048_S128x2048) := rfl
  rw [tree, shapeCast_self x3, shapeCast_self x4, shapeCast_self x5]
  show (FloatOps.matmul (F := Ideal) dot_S128x512_S512x2048_S128x2048_1_0_0_1_n_n none (truncf (F := Ideal) .bf16 x0 bitsLt_bf16_f32) x3 (constant (F := Ideal) S128x2048 .f32 0x00000000#32) (ix2 p j)
      + FloatOps.matmul (F := Ideal) dot_S128x512_S512x2048_S128x2048_1_0_0_1_n_n none (truncf (F := Ideal) .bf16 x1 bitsLt_bf16_f32) x4 (constant (F := Ideal) S128x2048 .f32 0x00000000#32) (ix2 p j))
      + broadcastTo S128x2048 x5 broadcasts_S1x2048_S128x2048 (ix2 p j) = _
  rw [PlainDot.matmul_zero_plain _ plain_gate, PlainDot.matmul_zero_plain _ plain_gate,
    bcast_row (by decide) (by decide) x5 broadcasts_S1x2048_S128x2048 p j]
  rfl

/-- Gate column block `o` of the block, with an activation applied entrywise, is the activation of the row's gate there. -/
theorem gate_col_at (x0 x1 : Vec Ideal S128x512 .f32) (x3 x4 : Vec Ideal S512x2048 .bf16) (x5 : Vec Ideal S1x2048 .f32)
    (o : Nat) (ho : o + 512 ≤ 2048) (h : S128x2048.Slices ![0, o] S128x512) (p : Fin 128) (q : Fin 512) :
    extractStridedSlice S128x512 ![0, o] (k0_pay5 (F := Ideal) x0 x1 x3 x4 x5) h (ix2 p q)
      = gate (rowOf x0 p) (rowOf x1 p) (rowOf x3) (rowOf x4) (rowOf x5 0) (col o ho q) :=
  (slice_cols o ho _ h p q).trans (gate_at x0 x1 x3 x4 x5 p _)

/-! ## The attention scores, their row maximum, and the softmax weights -/

/-- The block's scores before the row maximum is taken off: the hidden tile times the score matrix, plus the broadcast bias. -/
def scores (x1 : FVec Ideal S128x512 .f32) (x6 : FVec Ideal S512x4096 .bf16) (x7 : FVec Ideal S1x4096 .f32) : FVec Ideal S128x4096 .f32 :=
  addf (matmul dot_S128x512_S512x4096_S128x4096_1_0_0_1_n_n none (k0_pay4 (F := Ideal) x1) (shapeCast S512x4096 x6 shapeCasts_S512x4096_S512x4096) (constant (F := Ideal) S128x4096 .f32 0x00000000#32))
    (broadcastTo S128x4096 (shapeCast S1x4096 x7 shapeCasts_S1x4096_S1x4096) broadcasts_S1x4096_S128x4096)

theorem scores_at (x1 : Vec Ideal S128x512 .f32) (x6 : Vec Ideal S512x4096 .bf16) (x7 : Vec Ideal S1x4096 .f32) (p : Fin 128) (n : Fin 4096) :
    scores x1 x6 x7 (ix2 p n) = logit (rowOf x1 p) (rowOf x6) (rowOf x7 0) n := by
  unfold scores
  rw [shapeCast_self x6, shapeCast_self x7]
  show FloatOps.matmul (F := Ideal) dot_S128x512_S512x4096_S128x4096_1_0_0_1_n_n none (truncf (F := Ideal) .bf16 x1 bitsLt_bf16_f32) x6 (constant (F := Ideal) S128x4096 .f32 0x00000000#32) (ix2 p n)
      + broadcastTo S128x4096 x7 broadcasts_S1x4096_S128x4096 (ix2 p n) = _
  rw [PlainDot.matmul_zero_plain _ plain_score, bcast_row (by decide) (by decide) x7 broadcasts_S1x4096_S128x4096 p n]
  rfl

theorem scores_row (x1 : Vec Ideal S128x512 .f32) (x6 : Vec Ideal S512x4096 .bf16) (x7 : Vec Ideal S1x4096 .f32) (p : Fin 128) :
    rowOf (scores x1 x6 x7) p = logit (rowOf x1 p) (rowOf x6) (rowOf x7 0) :=
  funext fun n => scores_at x1 x6 x7 p n

/-- A lane maximum over the 4096 columns, at row p, is the fold of max over row p. -/
theorem rowmax_at (v : FVec Ideal S128x4096 .f32) (hφ : FKind.Formats .f32)
    (hacc : (0xFF800000#32 : BitVec FTy.f32.bits) = FKind.maximumf.neutral .f32 hφ) (p : Fin 128) :
    multiReduction (F := Ideal) .maximumf [1] S128 v 0xFF800000#32 reduces_S128x4096_S128 hφ hacc (ix1 p) = top (rowOf v p) :=
  (Ideal.multiReduction_maximumf_single v _ reduces_S128x4096_S128 hφ hacc (ix1 p)).trans
    (congrArg (fun f : Fin 4096 → EReal => Finset.fold max (Ideal.ofBits .f32 0xFF800000#32) f Finset.univ)
      (funext fun k => congrArg v (funext fun a => Fin.ext (by match a with | ⟨0, _⟩ => rfl | ⟨1, _⟩ => rfl))))

/-- A lane sum over the 4096 columns, at row p, is the sum over row p. -/
theorem rowsum_at (v : FVec Ideal S128x4096 .f32) (hφ : FKind.Formats .f32)
    (hacc : (0x00000000#32 : BitVec FTy.f32.bits) = FKind.add.neutral .f32 hφ) (p : Fin 128) :
    multiReduction (F := Ideal) .add [1] S128 v 0x00000000#32 reduces_S128x4096_S128 hφ hacc (ix1 p) = ∑ n : Fin 4096, rowOf v p n :=
  (Ideal.multiReduction_add_single v _ reduces_S128x4096_S128 hφ hacc (ix1 p)).trans
    (Finset.sum_congr rfl fun k _ => congrArg v (funext fun a => Fin.ext (by match a with | ⟨0, _⟩ => rfl | ⟨1, _⟩ => rfl)))

/-- The exponentials of the scores less their row maximum. -/
theorem ex_at (x1 : Vec Ideal S128x512 .f32) (x6 : Vec Ideal S512x4096 .bf16) (x7 : Vec Ideal S1x4096 .f32) (p : Fin 128) (n : Fin 4096) :
    k0_pay10 (F := Ideal) x1 x6 x7 (ix2 p n) = ex (logit (rowOf x1 p) (rowOf x6) (rowOf x7 0)) n := by
  have h1 : broadcastTo S128x4096 (shapeCast S128x1 (multiReduction (F := Ideal) .maximumf [1] S128 (scores x1 x6 x7) 0xFF800000#32 reduces_S128x4096_S128 (.inl rfl) rfl) shapeCasts_S128_S128x1) broadcasts_S128x1_S128x4096 (ix2 p n)
      = top (logit (rowOf x1 p) (rowOf x6) (rowOf x7 0)) :=
    (bcast_col (by decide) _ shapeCasts_S128_S128x1 broadcasts_S128x1_S128x4096 p n).trans
      ((rowmax_at (scores x1 x6 x7) (.inl rfl) rfl p).trans (congrArg top (scores_row x1 x6 x7 p)))
  exact congrArg₂ (fun a b : EReal => Ideal.exp (a - b)) (scores_at x1 x6 x7 p n) h1

theorem ex_row (x1 : Vec Ideal S128x512 .f32) (x6 : Vec Ideal S512x4096 .bf16) (x7 : Vec Ideal S1x4096 .f32) (p : Fin 128) :
    rowOf (k0_pay10 (F := Ideal) x1 x6 x7) p = ex (logit (rowOf x1 p) (rowOf x6) (rowOf x7 0)) :=
  funext fun n => ex_at x1 x6 x7 p n

/-- The softmax weights: what the body stores as the attention block. -/
theorem weight_at (x1 : Vec Ideal S128x512 .f32) (x6 : Vec Ideal S512x4096 .bf16) (x7 : Vec Ideal S1x4096 .f32) (p : Fin 128) (n : Fin 4096) :
    k0_pay1 (F := Ideal) (k0_pay10 x1 x6 x7) (k0_pay11 x1 x6 x7) (ix2 p n) = weight (logit (rowOf x1 p) (rowOf x6) (rowOf x7 0)) n := by
  have h1 : broadcastTo S128x4096 (shapeCast S128x1 (multiReduction (F := Ideal) .add [1] S128 (k0_pay10 (F := Ideal) x1 x6 x7) 0x00000000#32 reduces_S128x4096_S128 (.inl rfl) rfl) shapeCasts_S128_S128x1) broadcasts_S128x1_S128x4096 (ix2 p n)
      = ∑ n' : Fin 4096, ex (logit (rowOf x1 p) (rowOf x6) (rowOf x7 0)) n' :=
    (bcast_col (by decide) _ shapeCasts_S128_S128x1 broadcasts_S128x1_S128x4096 p n).trans
      ((rowsum_at (k0_pay10 (F := Ideal) x1 x6 x7) (.inl rfl) rfl p).trans (Finset.sum_congr rfl fun n' _ => ex_at x1 x6 x7 p n'))
  exact congrArg₂ Ideal.div (ex_at x1 x6 x7 p n) h1

theorem weight_row (x1 : Vec Ideal S128x512 .f32) (x6 : Vec Ideal S512x4096 .bf16) (x7 : Vec Ideal S1x4096 .f32) (p : Fin 128) :
    rowOf (k0_pay1 (F := Ideal) (k0_pay10 x1 x6 x7) (k0_pay11 x1 x6 x7)) p = weight (logit (rowOf x1 p) (rowOf x6) (rowOf x7 0)) :=
  funext fun n => weight_at x1 x6 x7 p n

/-! ## The new cell state and the new hidden state -/

theorem cell_at (x0 x1 x2 : Vec Ideal S128x512 .f32) (x3 x4 : Vec Ideal S512x2048 .bf16) (x5 : Vec Ideal S1x2048 .f32)
    (x6 : Vec Ideal S512x4096 .bf16) (x7 : Vec Ideal S1x4096 .f32) (x8 : Vec Ideal S4096x512 .bf16) (p : Fin 128) (q : Fin 512) :
    k0_pay2 (F := Ideal) x2 (k0_pay6 x0 x1 x3 x4 x5) (k0_pay7 x0 x1 x3 x4 x5) (k0_pay8 x0 x1 x3 x4 x5) (k0_pay10 x1 x6 x7) (k0_pay11 x1 x6 x7) x8 (ix2 p q)
      = cell (rowOf x0 p) (rowOf x1 p) (rowOf x2 p) (rowOf x3) (rowOf x4) (rowOf x5 0) (rowOf x6) (rowOf x7 0) (rowOf x8) q := by
  show (Ideal.logistic (extractStridedSlice S128x512 ![0, 512] (k0_pay5 (F := Ideal) x0 x1 x3 x4 x5) slices_S128x2048_o0_512_S128x512 (ix2 p q)) * x2 (ix2 p q)
        + Ideal.logistic (extractStridedSlice S128x512 ![0, 0] (k0_pay5 (F := Ideal) x0 x1 x3 x4 x5) slices_S128x2048_o0_0_S128x512 (ix2 p q))
          * Ideal.tanh (extractStridedSlice S128x512 ![0, 1024] (k0_pay5 (F := Ideal) x0 x1 x3 x4 x5) slices_S128x2048_o0_1024_S128x512 (ix2 p q)))
      + Ideal.ofBits .f32 0x3DCCCCCD#32
        * FloatOps.matmul (F := Ideal) dot_S128x4096_S4096x512_S128x512_1_0_0_1_n_n none
            (truncf (F := Ideal) .bf16 (k0_pay1 (F := Ideal) (k0_pay10 x1 x6 x7) (k0_pay11 x1 x6 x7)) bitsLt_bf16_f32)
            (shapeCast S4096x512 x8 shapeCasts_S4096x512_S4096x512) (constant (F := Ideal) S128x512 .f32 0x00000000#32) (ix2 p q) = _
  rw [shapeCast_self x8, PlainDot.matmul_zero_plain _ plain_read,
    gate_col_at x0 x1 x3 x4 x5 512 (by omega), gate_col_at x0 x1 x3 x4 x5 0 (by omega), gate_col_at x0 x1 x3 x4 x5 1024 (by omega)]
  show _ + _ * (∑ k : Fin 4096, rowOf (k0_pay1 (F := Ideal) (k0_pay10 x1 x6 x7) (k0_pay11 x1 x6 x7)) p k * x8 (ix2 k q)) = _
  rw [weight_row]
  rfl

theorem hidden_at (x0 x1 x2 : Vec Ideal S128x512 .f32) (x3 x4 : Vec Ideal S512x2048 .bf16) (x5 : Vec Ideal S1x2048 .f32)
    (x6 : Vec Ideal S512x4096 .bf16) (x7 : Vec Ideal S1x4096 .f32) (x8 : Vec Ideal S4096x512 .bf16) (p : Fin 128) (q : Fin 512) :
    k0_pay3 (F := Ideal) x2 (k0_pay6 x0 x1 x3 x4 x5) (k0_pay7 x0 x1 x3 x4 x5) (k0_pay8 x0 x1 x3 x4 x5) (k0_pay9 x0 x1 x3 x4 x5) (k0_pay10 x1 x6 x7) (k0_pay11 x1 x6 x7) x8 (ix2 p q)
      = hidden (rowOf x0 p) (rowOf x1 p) (rowOf x2 p) (rowOf x3) (rowOf x4) (rowOf x5 0) (rowOf x6) (rowOf x7 0) (rowOf x8) q := by
  show Ideal.logistic (extractStridedSlice S128x512 ![0, 1536] (k0_pay5 (F := Ideal) x0 x1 x3 x4 x5) slices_S128x2048_o0_1536_S128x512 (ix2 p q))
      * Ideal.tanh (k0_pay2 (F := Ideal) x2 (k0_pay6 x0 x1 x3 x4 x5) (k0_pay7 x0 x1 x3 x4 x5) (k0_pay8 x0 x1 x3 x4 x5) (k0_pay10 x1 x6 x7) (k0_pay11 x1 x6 x7) x8 (ix2 p q)) = _
  rw [gate_col_at x0 x1 x3 x4 x5 1536 (by omega), cell_at]
  rfl

end Cert.KernelRow

end
-- ==== Proof.KernelValue.lean ====
/-
  From blocks to whole arrays, for the kernel.

  The grid has 128 points; point t handles batch rows 128·t … 128·t + 127. Its input, hidden-state and cell-state tiles
  are those rows of the three batch arrays; every weight window is the whole weight array at every point (the two halves
  of the gate matrix sliced out beforehand, the biases viewed as one-row arrays). So what point t writes back to each of
  the three outputs is rows 128·t … 128·t + 127 of the specification's whole-array function, and since the 128 row
  tiles cover all 16384 rows, each output array ends as that function.
-/
import proofs.«136633_j86174223827709_2_alg».proof.Proof.Gen.KernelIdeal.Value
import proofs.«136633_j86174223827709_2_alg».proof.Proof.KernelRow
import proofs.«136633_j86174223827709_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelValue

open Cert.KernelIdeal Cert.KernelIdeal.Gen Idealize.ShloMosaic Idealize.ShloMosaic.TcCoe Idealize.SL.Sem
open Idealize.ShloMosaic.ValueIdx Cert.Row
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Which block each window holds at a point -/

/-- The three batch inputs and the three outputs are at row tile t; every weight window is at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Batch row 128·t + p: row p of tile t. -/
def rowAt (t : Fin cfg0.N) (p : Fin 128) : Fin 16384 :=
  ⟨t.val * 128 + p.val, by have h := t.isLt; have hN : cfg0.N = 128 := N_0; have hp := p.isLt; omega⟩

/-! ## The arrays the region finds -/

/-- The first half of the gate matrix, as the region finds it. -/
theorem V_gate_lo (c : Dev nD) (k : Fin 512) (j : Fin 2048) :
    V m c main_v1 (ix2 k j) = m ((c : Thread nD τ).loc main_arg3) (ix2 (lo k) j) := by
  have e : (V m c main_v1 : S512x2048.Idx → EReal)
      = truncf (F := Ideal) .bf16 (extractStridedSlice S512x2048 ![0, 0] (m ((c : Thread nD τ).loc main_arg3)) slices_S1024x2048_S512x2048_0_0) bitsLt_bf16_f32 := by
    dsimp only [Gen.V, Gen.hostOps0]; after_results <;> rfl
  rw [e]
  exact extractStridedSlice_apply ![0, 0] _ slices_S1024x2048_S512x2048_0_0 (ix2 k j) (ix2 (lo k) j) (fun a => match a with
    | ⟨0, _⟩ => by show k.val = 0 + k.val; omega
    | ⟨1, _⟩ => by show j.val = 0 + j.val; omega)

/-- The second half of the gate matrix, as the region finds it. -/
theorem V_gate_hi (c : Dev nD) (k : Fin 512) (j : Fin 2048) :
    V m c main_v3 (ix2 k j) = m ((c : Thread nD τ).loc main_arg3) (ix2 (hi k) j) := by
  have e : (V m c main_v3 : S512x2048.Idx → EReal)
      = truncf (F := Ideal) .bf16 (extractStridedSlice S512x2048 ![512, 0] (m ((c : Thread nD τ).loc main_arg3)) slices_S1024x2048_S512x2048_512_0) bitsLt_bf16_f32 := by
    dsimp only [Gen.V, Gen.hostOps0]; after_results <;> rfl
  rw [e]
  exact extractStridedSlice_apply ![512, 0] _ slices_S1024x2048_S512x2048_512_0 (ix2 k j) (ix2 (hi k) j) (fun a => match a with
    | ⟨0, _⟩ => by show 512 + k.val = 512 + k.val; rfl
    | ⟨1, _⟩ => by show j.val = 0 + j.val; omega)

/-- The score matrix, as the region finds it. -/
theorem V_score (c : Dev nD) : (V m c main_v4 : S512x4096.Idx → EReal) = m ((c : Thread nD τ).loc main_arg5) := by
  dsimp only [Gen.V, Gen.hostOps0]; after_results <;> rfl

/-- The memory matrix, as the region finds it. -/
theorem V_memory (c : Dev nD) : (V m c main_v5 : S4096x512.Idx → EReal) = m ((c : Thread nD τ).loc main_arg7) := by
  dsimp only [Gen.V, Gen.hostOps0]; after_results <;> rfl

/-- The gate bias viewed as a one-row array. -/
theorem V_gate_bias (c : Dev nD) (j : Fin 2048) : V m c main_v6 (ix2 0 j) = m ((c : Thread nD τ).loc main_arg4) (ix1 j) := by
  have e : (V m c main_v6 : S1x2048.Idx → EReal) = shapeCast S1x2048 (m ((c : Thread nD τ).loc main_arg4)) shapeCasts_S2048_S1x2048 := by
    dsimp only [Gen.V, Gen.hostOps0]; after_results <;> rfl
  rw [e]
  exact shapeCast_apply _ shapeCasts_S2048_S1x2048 (ix2 0 j) (ix1 j) (by
    rw [Shape.rowMajor_val_one, Shape.rowMajor_val_two]; show j.val = 0 * 2048 + j.val; omega)

/-- The score bias viewed as a one-row array. -/
theorem V_score_bias (c : Dev nD) (n : Fin 4096) : V m c main_v7 (ix2 0 n) = m ((c : Thread nD τ).loc main_arg6) (ix1 n) := by
  have e : (V m c main_v7 : S1x4096.Idx → EReal) = shapeCast S1x4096 (m ((c : Thread nD τ).loc main_arg6)) shapeCasts_S4096_S1x4096 := by
    dsimp only [Gen.V, Gen.hostOps0]; after_results <;> rfl
  rw [e]
  exact shapeCast_apply _ shapeCasts_S4096_S1x4096 (ix2 0 n) (ix1 n) (by
    rw [Shape.rowMajor_val_one, Shape.rowMajor_val_two]; show n.val = 0 * 4096 + n.val; omega)

/-! ## The tiles at a point -/

/-- Row p of point t's tile of the input is batch row 128·t + p of the whole array. -/
theorem tile0 (c : Dev nD) (t : Fin cfg0.N) (p : Fin 128) :
    rowOf (A := 128) (B := 512) (iblk m c 0 t) p = rowOf (m ((c : Thread nD τ).loc main_arg0)) (rowAt t p) := by
  funext k
  obtain ⟨⟨e0, e1⟩, -, -, -, -, -, -, -, -, -, -, -⟩ := idx_facts t
  show V m c main_arg0 (((cfg0.win 0).blk t).view.emb (ix2 p k)) = (m ((c : Thread nD τ).loc main_arg0)) (ix2 (rowAt t p) k)
  rw [V_main_arg0]
  refine congrArg (m ((c : Thread nD τ).loc main_arg0)) (funext fun a => Fin.ext ?_)
  match a with
  | ⟨0, _⟩ => show win0_0.index t (0 : Fin 2) * 128 + 1 * p.val = t.val * 128 + p.val; omega
  | ⟨1, _⟩ => show win0_0.index t (1 : Fin 2) * 512 + 1 * k.val = k.val; omega

/-- Row p of point t's tile of the hidden state is batch row 128·t + p of the whole array. -/
theorem tile1 (c : Dev nD) (t : Fin cfg0.N) (p : Fin 128) :
    rowOf (A := 128) (B := 512) (iblk m c 1 t) p = rowOf (m ((c : Thread nD τ).loc main_arg1)) (rowAt t p) := by
  funext k
  obtain ⟨-, ⟨e0, e1⟩, -, -, -, -, -, -, -, -, -, -⟩ := idx_facts t
  show V m c main_arg1 (((cfg0.win 1).blk t).view.emb (ix2 p k)) = (m ((c : Thread nD τ).loc main_arg1)) (ix2 (rowAt t p) k)
  rw [V_main_arg1]
  refine congrArg (m ((c : Thread nD τ).loc main_arg1)) (funext fun a => Fin.ext ?_)
  match a with
  | ⟨0, _⟩ => show win0_1.index t (0 : Fin 2) * 128 + 1 * p.val = t.val * 128 + p.val; omega
  | ⟨1, _⟩ => show win0_1.index t (1 : Fin 2) * 512 + 1 * k.val = k.val; omega

/-- Row p of point t's tile of the cell state is batch row 128·t + p of the whole array. -/
theorem tile2 (c : Dev nD) (t : Fin cfg0.N) (p : Fin 128) :
    rowOf (A := 128) (B := 512) (iblk m c 2 t) p = rowOf (m ((c : Thread nD τ).loc main_arg2)) (rowAt t p) := by
  funext k
  obtain ⟨-, -, ⟨e0, e1⟩, -, -, -, -, -, -, -, -, -⟩ := idx_facts t
  show V m c main_arg2 (((cfg0.win 2).blk t).view.emb (ix2 p k)) = (m ((c : Thread nD τ).loc main_arg2)) (ix2 (rowAt t p) k)
  rw [V_main_arg2]
  refine congrArg (m ((c : Thread nD τ).loc main_arg2)) (funext fun a => Fin.ext ?_)
  match a with
  | ⟨0, _⟩ => show win0_2.index t (0 : Fin 2) * 128 + 1 * p.val = t.val * 128 + p.val; omega
  | ⟨1, _⟩ => show win0_2.index t (1 : Fin 2) * 512 + 1 * k.val = k.val; omega

/-- The gate matrix's first-half window holds, at every point, rows 0 … 511 of the gate matrix. -/
theorem tile3 (c : Dev nD) (t : Fin cfg0.N) :
    rowOf (A := 512) (B := 2048) (iblk m c 3 t) = fun k => rowOf (m ((c : Thread nD τ).loc main_arg3)) (lo k) := by
  funext k j
  obtain ⟨-, -, -, ⟨e0, e1⟩, -, -, -, -, -, -, -, -⟩ := idx_facts t
  show V m c main_v1 (((cfg0.win 3).blk t).view.emb (ix2 k j)) = (m ((c : Thread nD τ).loc main_arg3)) (ix2 (lo k) j)
  have e : ((cfg0.win 3).blk t).view.emb (ix2 k j) = ix2 k j := funext fun a => Fin.ext (by
    match a with
    | ⟨0, _⟩ => show win0_3.index t (0 : Fin 2) * 512 + 1 * k.val = k.val; omega
    | ⟨1, _⟩ => show win0_3.index t (1 : Fin 2) * 2048 + 1 * j.val = j.val; omega)
  exact (congrArg (V m c main_v1) e).trans (V_gate_lo m c k j)

/-- The gate matrix's second-half window holds, at every point, rows 512 … 1023 of the gate matrix. -/
theorem tile4 (c : Dev nD) (t : Fin cfg0.N) :
    rowOf (A := 512) (B := 2048) (iblk m c 4 t) = fun k => rowOf (m ((c : Thread nD τ).loc main_arg3)) (hi k) := by
  funext k j
  obtain ⟨-, -, -, -, ⟨e0, e1⟩, -, -, -, -, -, -, -⟩ := idx_facts t
  show V m c main_v3 (((cfg0.win 4).blk t).view.emb (ix2 k j)) = (m ((c : Thread nD τ).loc main_arg3)) (ix2 (hi k) j)
  have e : ((cfg0.win 4).blk t).view.emb (ix2 k j) = ix2 k j := funext fun a => Fin.ext (by
    match a with
    | ⟨0, _⟩ => show win0_4.index t (0 : Fin 2) * 512 + 1 * k.val = k.val; omega
    | ⟨1, _⟩ => show win0_4.index t (1 : Fin 2) * 2048 + 1 * j.val = j.val; omega)
  exact (congrArg (V m c main_v3) e).trans (V_gate_hi m c k j)

/-- The gate bias window holds the gate bias. -/
theorem tile5 (c : Dev nD) (t : Fin cfg0.N) :
    rowOf (A := 1) (B := 2048) (iblk m c 5 t) 0 = vecOf (m ((c : Thread nD τ).loc main_arg4)) := by
  funext j
  obtain ⟨-, -, -, -, -, ⟨e0, e1⟩, -, -, -, -, -, -⟩ := idx_facts t
  show V m c main_v6 (((cfg0.win 5).blk t).view.emb (ix2 0 j)) = (m ((c : Thread nD τ).loc main_arg4)) (ix1 j)
  have e : ((cfg0.win 5).blk t).view.emb (ix2 (0 : Fin 1) j) = ix2 0 j := funext fun a => Fin.ext (by
    match a with
    | ⟨0, _⟩ => show win0_5.index t (0 : Fin 2) * 1 + 1 * 0 = 0; omega
    | ⟨1, _⟩ => show win0_5.index t (1 : Fin 2) * 2048 + 1 * j.val = j.val; omega)
  exact (congrArg (V m c main_v6) e).trans (V_gate_bias m c j)

/-- The score matrix's window holds the whole score matrix. -/
theorem tile6 (c : Dev nD) (t : Fin cfg0.N) :
    rowOf (A := 512) (B := 4096) (iblk m c 6 t) = rowOf (m ((c : Thread nD τ).loc main_arg5)) := by
  funext k j
  obtain ⟨-, -, -, -, -, -, ⟨e0, e1⟩, -, -, -, -, -⟩ := idx_facts t
  show V m c main_v4 (((cfg0.win 6).blk t).view.emb (ix2 k j)) = (m ((c : Thread nD τ).loc main_arg5)) (ix2 k j)
  have e : ((cfg0.win 6).blk t).view.emb (ix2 k j) = ix2 k j := funext fun a => Fin.ext (by
    match a with
    | ⟨0, _⟩ => show win0_6.index t (0 : Fin 2) * 512 + 1 * k.val = k.val; omega
    | ⟨1, _⟩ => show win0_6.index t (1 : Fin 2) * 4096 + 1 * j.val = j.val; omega)
  exact (congrArg (V m c main_v4) e).trans (congrFun (V_score m c) (ix2 k j))

/-- The score bias window holds the score bias. -/
theorem tile7 (c : Dev nD) (t : Fin cfg0.N) :
    rowOf (A := 1) (B := 4096) (iblk m c 7 t) 0 = vecOf (m ((c : Thread nD τ).loc main_arg6)) := by
  funext j
  obtain ⟨-, -, -, -, -, -, -, ⟨e0, e1⟩, -, -, -, -⟩ := idx_facts t
  show V m c main_v7 (((cfg0.win 7).blk t).view.emb (ix2 0 j)) = (m ((c : Thread nD τ).loc main_arg6)) (ix1 j)
  have e : ((cfg0.win 7).blk t).view.emb (ix2 (0 : Fin 1) j) = ix2 0 j := funext fun a => Fin.ext (by
    match a with
    | ⟨0, _⟩ => show win0_7.index t (0 : Fin 2) * 1 + 1 * 0 = 0; omega
    | ⟨1, _⟩ => show win0_7.index t (1 : Fin 2) * 4096 + 1 * j.val = j.val; omega)
  exact (congrArg (V m c main_v7) e).trans (V_score_bias m c j)

/-- The memory matrix's window holds the whole memory matrix. -/
theorem tile8 (c : Dev nD) (t : Fin cfg0.N) :
    rowOf (A := 4096) (B := 512) (iblk m c 8 t) = rowOf (m ((c : Thread nD τ).loc main_arg7)) := by
  funext k j
  obtain ⟨-, -, -, -, -, -, -, -, ⟨e0, e1⟩, -, -, -⟩ := idx_facts t
  show V m c main_v5 (((cfg0.win 8).blk t).view.emb (ix2 k j)) = (m ((c : Thread nD τ).loc main_arg7)) (ix2 k j)
  have e : ((cfg0.win 8).blk t).view.emb (ix2 k j) = ix2 k j := funext fun a => Fin.ext (by
    match a with
    | ⟨0, _⟩ => show win0_8.index t (0 : Fin 2) * 4096 + 1 * k.val = k.val; omega
    | ⟨1, _⟩ => show win0_8.index t (1 : Fin 2) * 512 + 1 * j.val = j.val; omega)
  exact (congrArg (V m c main_v5) e).trans (congrFun (V_memory m c) (ix2 k j))

/-! ## Where an output block's entries sit in the output array -/

theorem out_emb9 (t : Fin cfg0.N) (p : Fin 128) (q : Fin 512) :
    ((cfg0.win 9).blk t).view.emb (ix2 p q) = ix2 (rowAt t p) q := funext fun a => Fin.ext (by
  obtain ⟨-, -, -, -, -, -, -, -, -, ⟨e0, e1⟩, -, -⟩ := idx_facts t
  match a with
  | ⟨0, _⟩ => show win0_9.index t (0 : Fin 2) * 128 + 1 * p.val = t.val * 128 + p.val; omega
  | ⟨1, _⟩ => show win0_9.index t (1 : Fin 2) * 512 + 1 * q.val = q.val; omega)

theorem mem_blk9 (t : Fin cfg0.N) (i : S16384x512.Idx) :
    i ∈ ((cfg0.win 9).blk t).view.set ↔ ∀ a : Fin 2, win0_9.index t a * S128x512.size a ≤ (i a).val ∧ (i a).val < win0_9.index t a * S128x512.size a + S128x512.size a := by
  show i ∈ ((View.whole main_v8_0).slice (win0_9.rect t)).set ↔ _
  rw [View.set_slice_whole, Rect.mem_set_unit]
  exact Iff.rfl

/-- Every entry of the output array lies in the block of the point that handles its row. -/
theorem cover9 (i : S16384x512.Idx) : ∃ t : Fin cfg0.N, (cfg0.win 9).flush t = true ∧ i ∈ ((cfg0.win 9).blk t).view.set := by
  have hi0 : (i 0).val < 16384 := (i 0).isLt
  have hi1 : (i 1).val < 512 := (i 1).isLt
  have hN : cfg0.N = 128 := N_0
  obtain ⟨t, ht⟩ : ∃ t : Fin cfg0.N, t.val = (i 0).val / 128 := ⟨⟨(i 0).val / 128, by omega⟩, rfl⟩
  obtain ⟨-, -, -, -, -, -, -, -, -, ⟨e0, e1⟩, -, -⟩ := idx_facts t
  refine ⟨t, flush0_9 t, ?_⟩
  rw [mem_blk9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 512 ≤ (i 1).val ∧ (i 1).val < win0_9.index t (1 : Fin 2) * 512 + 512; omega

theorem out_emb10 (t : Fin cfg0.N) (p : Fin 128) (q : Fin 512) :
    ((cfg0.win 10).blk t).view.emb (ix2 p q) = ix2 (rowAt t p) q := funext fun a => Fin.ext (by
  obtain ⟨-, -, -, -, -, -, -, -, -, -, ⟨e0, e1⟩, -⟩ := idx_facts t
  match a with
  | ⟨0, _⟩ => show win0_10.index t (0 : Fin 2) * 128 + 1 * p.val = t.val * 128 + p.val; omega
  | ⟨1, _⟩ => show win0_10.index t (1 : Fin 2) * 512 + 1 * q.val = q.val; omega)

theorem mem_blk10 (t : Fin cfg0.N) (i : S16384x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v8_1).slice (win0_10.rect t)).set ↔ _
  rw [View.set_slice_whole, Rect.mem_set_unit]
  exact Iff.rfl

/-- Every entry of the output array lies in the block of the point that handles its row. -/
theorem cover10 (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 128 := N_0
  obtain ⟨t, ht⟩ : ∃ t : Fin cfg0.N, t.val = (i 0).val / 128 := ⟨⟨(i 0).val / 128, by omega⟩, rfl⟩
  obtain ⟨-, -, -, -, -, -, -, -, -, -, ⟨e0, e1⟩, -⟩ := idx_facts t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 512 ≤ (i 1).val ∧ (i 1).val < win0_10.index t (1 : Fin 2) * 512 + 512; omega

theorem out_emb11 (t : Fin cfg0.N) (p : Fin 128) (q : Fin 4096) :
    ((cfg0.win 11).blk t).view.emb (ix2 p q) = ix2 (rowAt t p) q := funext fun a => Fin.ext (by
  obtain ⟨-, -, -, -, -, -, -, -, -, -, -, ⟨e0, e1⟩⟩ := idx_facts t
  match a with
  | ⟨0, _⟩ => show win0_11.index t (0 : Fin 2) * 128 + 1 * p.val = t.val * 128 + p.val; omega
  | ⟨1, _⟩ => show win0_11.index t (1 : Fin 2) * 4096 + 1 * q.val = q.val; omega)

theorem mem_blk11 (t : Fin cfg0.N) (i : S16384x4096.Idx) :
    i ∈ ((cfg0.win 11).blk t).view.set ↔ ∀ a : Fin 2, win0_11.index t a * S128x4096.size a ≤ (i a).val ∧ (i a).val < win0_11.index t a * S128x4096.size a + S128x4096.size a := by
  show i ∈ ((View.whole main_v8_2).slice (win0_11.rect t)).set ↔ _
  rw [View.set_slice_whole, Rect.mem_set_unit]
  exact Iff.rfl

/-- Every entry of the output array lies in the block of the point that handles its row. -/
theorem cover11 (i : S16384x4096.Idx) : ∃ t : Fin cfg0.N, (cfg0.win 11).flush t = true ∧ i ∈ ((cfg0.win 11).blk t).view.set := by
  have hi0 : (i 0).val < 16384 := (i 0).isLt
  have hi1 : (i 1).val < 4096 := (i 1).isLt
  have hN : cfg0.N = 128 := N_0
  obtain ⟨t, ht⟩ : ∃ t : Fin cfg0.N, t.val = (i 0).val / 128 := ⟨⟨(i 0).val / 128, by omega⟩, rfl⟩
  obtain ⟨-, -, -, -, -, -, -, -, -, -, -, ⟨e0, e1⟩⟩ := idx_facts t
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 4096 ≤ (i 1).val ∧ (i 1).val < win0_11.index t (1 : Fin 2) * 4096 + 4096; omega

/-! ## What each point writes back -/

/-- Point t writes rows 128·t … 128·t + 127 of the new hidden state. -/
theorem flushed9_eq (c : Dev nD) (t : Fin cfg0.N) :
    (dats m 0 c).flushed 9 t = ((cfg0.win 9).blk t).view.read (Elt Ideal) (hiddenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed9]
  unfold out0_9
  rw [View.canon_unit_zero hz]
  simp only [View.ld_unit_zero (S := S128x512) hz, View.ld_unit_zero (S := S512x2048) hz, View.ld_unit_zero (S := S1x2048) hz, View.ld_unit_zero (S := S512x4096) hz, View.ld_unit_zero (S := S1x4096) hz, View.ld_unit_zero (S := S4096x512) hz]
  funext y
  obtain ⟨p, q, rfl⟩ : ∃ (p : Fin 128) (q : Fin 512), y = ix2 p q := ⟨y 0, y 1, eq_ix2 y⟩
  show k0_pay3 (F := Ideal) (iblk m c 2 t) (k0_pay6 (iblk m c 0 t) (iblk m c 1 t) (iblk m c 3 t) (iblk m c 4 t) (iblk m c 5 t)) (k0_pay7 (iblk m c 0 t) (iblk m c 1 t) (iblk m c 3 t) (iblk m c 4 t) (iblk m c 5 t)) (k0_pay8 (iblk m c 0 t) (iblk m c 1 t) (iblk m c 3 t) (iblk m c 4 t) (iblk m c 5 t)) (k0_pay9 (iblk m c 0 t) (iblk m c 1 t) (iblk m c 3 t) (iblk m c 4 t) (iblk m c 5 t)) (k0_pay10 (iblk m c 1 t) (iblk m c 6 t) (iblk m c 7 t)) (k0_pay11 (iblk m c 1 t) (iblk m c 6 t) (iblk m c 7 t)) (iblk m c 8 t) (ix2 p q)
      = hiddenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb (ix2 p q))
  refine (KernelRow.hidden_at (iblk m c 0 t) (iblk m c 1 t) (iblk m c 2 t) (iblk m c 3 t) (iblk m c 4 t) (iblk m c 5 t) (iblk m c 6 t) (iblk m c 7 t) (iblk m c 8 t) p q).trans ?_
  refine Eq.trans ?_ (congrArg (hiddenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (out_emb9 t p q)).symm
  show hidden (rowOf (A := 128) (B := 512) (iblk m c 0 t) p) (rowOf (A := 128) (B := 512) (iblk m c 1 t) p) (rowOf (A := 128) (B := 512) (iblk m c 2 t) p) (rowOf (A := 512) (B := 2048) (iblk m c 3 t)) (rowOf (A := 512) (B := 2048) (iblk m c 4 t)) (rowOf (A := 1) (B := 2048) (iblk m c 5 t) 0) (rowOf (A := 512) (B := 4096) (iblk m c 6 t)) (rowOf (A := 1) (B := 4096) (iblk m c 7 t) 0) (rowOf (A := 4096) (B := 512) (iblk m c 8 t)) q = hidden (rowOf (m ((c : Thread nD τ).loc main_arg0)) (rowAt t p)) (rowOf (m ((c : Thread nD τ).loc main_arg1)) (rowAt t p)) (rowOf (m ((c : Thread nD τ).loc main_arg2)) (rowAt t p)) (fun k => rowOf (m ((c : Thread nD τ).loc main_arg3)) (lo k)) (fun k => rowOf (m ((c : Thread nD τ).loc main_arg3)) (hi k)) (vecOf (m ((c : Thread nD τ).loc main_arg4))) (rowOf (m ((c : Thread nD τ).loc main_arg5))) (vecOf (m ((c : Thread nD τ).loc main_arg6))) (rowOf (m ((c : Thread nD τ).loc main_arg7))) q
  rw [tile0 m c t p, tile1 m c t p, tile2 m c t p, tile3 m c t, tile4 m c t, tile5 m c t, tile6 m c t, tile7 m c t, tile8 m c t]

/-- Point t writes rows 128·t … 128·t + 127 of the new cell state. -/
theorem flushed10_eq (c : Dev nD) (t : Fin cfg0.N) :
    (dats m 0 c).flushed 10 t = ((cfg0.win 10).blk t).view.read (Elt Ideal) (cellAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed10]
  unfold out0_10
  rw [View.canon_unit_zero hz]
  simp only [View.ld_unit_zero (S := S128x512) hz, View.ld_unit_zero (S := S512x2048) hz, View.ld_unit_zero (S := S1x2048) hz, View.ld_unit_zero (S := S512x4096) hz, View.ld_unit_zero (S := S1x4096) hz, View.ld_unit_zero (S := S4096x512) hz]
  funext y
  obtain ⟨p, q, rfl⟩ : ∃ (p : Fin 128) (q : Fin 512), y = ix2 p q := ⟨y 0, y 1, eq_ix2 y⟩
  show k0_pay2 (F := Ideal) (iblk m c 2 t) (k0_pay6 (iblk m c 0 t) (iblk m c 1 t) (iblk m c 3 t) (iblk m c 4 t) (iblk m c 5 t)) (k0_pay7 (iblk m c 0 t) (iblk m c 1 t) (iblk m c 3 t) (iblk m c 4 t) (iblk m c 5 t)) (k0_pay8 (iblk m c 0 t) (iblk m c 1 t) (iblk m c 3 t) (iblk m c 4 t) (iblk m c 5 t)) (k0_pay10 (iblk m c 1 t) (iblk m c 6 t) (iblk m c 7 t)) (k0_pay11 (iblk m c 1 t) (iblk m c 6 t) (iblk m c 7 t)) (iblk m c 8 t) (ix2 p q)
      = cellAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb (ix2 p q))
  refine (KernelRow.cell_at (iblk m c 0 t) (iblk m c 1 t) (iblk m c 2 t) (iblk m c 3 t) (iblk m c 4 t) (iblk m c 5 t) (iblk m c 6 t) (iblk m c 7 t) (iblk m c 8 t) p q).trans ?_
  refine Eq.trans ?_ (congrArg (cellAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (out_emb10 t p q)).symm
  show cell (rowOf (A := 128) (B := 512) (iblk m c 0 t) p) (rowOf (A := 128) (B := 512) (iblk m c 1 t) p) (rowOf (A := 128) (B := 512) (iblk m c 2 t) p) (rowOf (A := 512) (B := 2048) (iblk m c 3 t)) (rowOf (A := 512) (B := 2048) (iblk m c 4 t)) (rowOf (A := 1) (B := 2048) (iblk m c 5 t) 0) (rowOf (A := 512) (B := 4096) (iblk m c 6 t)) (rowOf (A := 1) (B := 4096) (iblk m c 7 t) 0) (rowOf (A := 4096) (B := 512) (iblk m c 8 t)) q = cell (rowOf (m ((c : Thread nD τ).loc main_arg0)) (rowAt t p)) (rowOf (m ((c : Thread nD τ).loc main_arg1)) (rowAt t p)) (rowOf (m ((c : Thread nD τ).loc main_arg2)) (rowAt t p)) (fun k => rowOf (m ((c : Thread nD τ).loc main_arg3)) (lo k)) (fun k => rowOf (m ((c : Thread nD τ).loc main_arg3)) (hi k)) (vecOf (m ((c : Thread nD τ).loc main_arg4))) (rowOf (m ((c : Thread nD τ).loc main_arg5))) (vecOf (m ((c : Thread nD τ).loc main_arg6))) (rowOf (m ((c : Thread nD τ).loc main_arg7))) q
  rw [tile0 m c t p, tile1 m c t p, tile2 m c t p, tile3 m c t, tile4 m c t, tile5 m c t, tile6 m c t, tile7 m c t, tile8 m c t]

/-- Point t writes rows 128·t … 128·t + 127 of the attention weights. -/
theorem flushed11_eq (c : Dev nD) (t : Fin cfg0.N) :
    (dats m 0 c).flushed 11 t = ((cfg0.win 11).blk t).view.read (Elt Ideal) (attnAll (m ((c : Thread nD τ).loc main_arg1)) (m ((c : Thread nD τ).loc main_arg5)) (m ((c : Thread nD τ).loc main_arg6))) := by
  rw [Value.flushed11]
  unfold out0_11
  rw [View.canon_unit_zero hz]
  simp only [View.ld_unit_zero (S := S128x512) hz, View.ld_unit_zero (S := S512x2048) hz, View.ld_unit_zero (S := S1x2048) hz, View.ld_unit_zero (S := S512x4096) hz, View.ld_unit_zero (S := S1x4096) hz, View.ld_unit_zero (S := S4096x512) hz]
  funext y
  obtain ⟨p, n, rfl⟩ : ∃ (p : Fin 128) (n : Fin 4096), y = ix2 p n := ⟨y 0, y 1, eq_ix2 y⟩
  show k0_pay1 (F := Ideal) (k0_pay10 (iblk m c 1 t) (iblk m c 6 t) (iblk m c 7 t)) (k0_pay11 (iblk m c 1 t) (iblk m c 6 t) (iblk m c 7 t)) (ix2 p n)
      = attnAll (m ((c : Thread nD τ).loc main_arg1)) (m ((c : Thread nD τ).loc main_arg5)) (m ((c : Thread nD τ).loc main_arg6)) (((cfg0.win 11).blk t).view.emb (ix2 p n))
  refine (KernelRow.weight_at (iblk m c 1 t) (iblk m c 6 t) (iblk m c 7 t) p n).trans ?_
  refine Eq.trans ?_ (congrArg (attnAll (m ((c : Thread nD τ).loc main_arg1)) (m ((c : Thread nD τ).loc main_arg5)) (m ((c : Thread nD τ).loc main_arg6))) (out_emb11 t p n)).symm
  show weight (logit (rowOf (A := 128) (B := 512) (iblk m c 1 t) p) (rowOf (A := 512) (B := 4096) (iblk m c 6 t)) (rowOf (A := 1) (B := 4096) (iblk m c 7 t) 0)) n
      = weight (logit (rowOf (m ((c : Thread nD τ).loc main_arg1)) (rowAt t p)) (rowOf (m ((c : Thread nD τ).loc main_arg5))) (vecOf (m ((c : Thread nD τ).loc main_arg6)))) n
  rw [tile1 m c t p, tile6 m c t, tile7 m c t]

/-! ## The arrays after the run -/

theorem final9 (c : Dev nD) : (dats m 0 c).arrAt 9 cfg0.N = hiddenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed9_eq m c t) cover9

theorem final10 (c : Dev nD) : (dats m 0 c).arrAt 10 cfg0.N = cellAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 _ (fun t _ => flushed10_eq m c t) cover10

theorem final11 (c : Dev nD) : (dats m 0 c).arrAt 11 cfg0.N = attnAll (m ((c : Thread nD τ).loc main_arg1)) (m ((c : Thread nD τ).loc main_arg5)) (m ((c : Thread nD τ).loc main_arg6)) :=
  (dats m 0 c).arrAt_eq_of_cover 11 _ (fun t _ => flushed11_eq m c t) cover11

/-- The kernel's run: it terminates without a fault, the three result arrays hold the specification's new hidden state,
    new cell state and attention weights of the argument arrays, and the arguments are unchanged. -/
theorem run : θ_run defs (onTc (τ := τ) (main (F := Ideal))) ⟨m, fun _ => 0, ρ⟩ fun r => ∀ c : Dev nD,
      r.2.mem ((c : Thread nD τ).loc main_v8_0) = hiddenAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v8_1) = cellAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v8_2) = attnAll (m ((c : Thread nD τ).loc main_arg1)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2.1.trans (final10 m c), (h c).2.2.1.trans (final11 m c), (h c).2.2.2⟩)
    (Value.run_blocks m ρ)

end Cert.KernelValue

end
-- ==== Proof.RefRow.lean ====
/-
  The reference's arithmetic at one entry.

  The reference works on whole arrays: it joins the input and the hidden state side by side and contracts the joined
  [16384, 1024] array with the whole gate matrix; it spells the logistic function as 1 / (1 + exp (−g)); it takes the row
  maximum of the scores by a fold from −∞ and then once more against −∞; its row sum starts from a zero word. Read at
  entry (r, q) each stage is the specification's row function of row r: the joined contraction splits into its two
  halves, the extra maximum against the fold's own starting value changes nothing, and the zero word is 0.
-/
import proofs.«136633_j86174223827709_2_alg».proof.Proof.Gen.ReferenceIdeal.Read
import proofs.«136633_j86174223827709_2_alg».proof.Proof.Spec
import Idealize.ShloMosaic.Lib.ValueIdx
import Idealize.ShloMosaic.Lib.Pipeline.Value
import Idealize.ShloMosaic.PureOps.Ideal.Laws

noncomputable section

namespace Cert.RefRow

open Cert.ReferenceIdeal Cert.ReferenceIdeal.Gen Cert.ReferenceIdeal.Read Idealize.ShloMosaic Idealize.ShloMosaic.ValueIdx Cert.Row

variable (x0 x1 x2 : (⟨S16384x512, .f32⟩ : BufTy).Contents (Elt Ideal)) (x3 : (⟨S1024x2048, .f32⟩ : BufTy).Contents (Elt Ideal))
  (x4 : (⟨S2048, .f32⟩ : BufTy).Contents (Elt Ideal)) (x5 : (⟨S512x4096, .f32⟩ : BufTy).Contents (Elt Ideal))
  (x6 : (⟨S4096, .f32⟩ : BufTy).Contents (Elt Ideal)) (x7 : (⟨S4096x512, .f32⟩ : BufTy).Contents (Elt Ideal))

/-! ## The two words that are numbers -/

theorem one_word : Ideal.ofBits .f32 0x3F800000#32 = 1 := IdealRules.sign_bit.ideal_onePat .f32

/-! ## The joined array -/

/-- The first 512 columns of the joined array are the input's. -/
theorem joined_lo (r : Fin 16384) (k : Fin 512) : val_main_v0 (F := Ideal) x0 x1 (ix2 r (lo k)) = x0 (ix2 r k) :=
  concatenate_pair_apply_left (t := S16384x1024) 1 x0 x1 concatenates_S16384x512_S16384x512_S16384x1024_d1 (ix2 r (lo k)) rfl (ix2 r k)
    (fun b => match b with | ⟨0, _⟩ => rfl | ⟨1, _⟩ => rfl)

/-- The last 512 columns of the joined array are the hidden state's. -/
theorem joined_hi (r : Fin 16384) (k : Fin 512) : val_main_v0 (F := Ideal) x0 x1 (ix2 r (hi k)) = x1 (ix2 r k) :=
  concatenate_pair_apply_right (t := S16384x1024) 1 x0 x1 concatenates_S16384x512_S16384x512_S16384x1024_d1 (ix2 r (hi k)) rfl rfl (ix2 r k)
    (fun b => match b with | ⟨0, _⟩ => fun _ => rfl | ⟨1, _⟩ => fun h => absurd rfl h)
    (by show k.val + 512 = 512 + k.val; omega)

/-! ## The gate pre-activations -/

theorem gate_at (r : Fin 16384) (j : Fin 2048) :
    val_main_v4 (F := Ideal) x0 x1 x3 x4 (ix2 r j)
      = gate (rowOf x0 r) (rowOf x1 r) (fun k => rowOf x3 (lo k)) (fun k => rowOf x3 (hi k)) (vecOf x4) j := by
  have eL : ∀ k : Fin 1024, lidx_main_v1 (ix2 r j) k = ix2 r k :=
    fun k => funext fun a => by match a with | ⟨0, _⟩ => rfl | ⟨1, _⟩ => rfl
  have eR : ∀ k : Fin 1024, ridx_main_v1 (ix2 r j) k = ix2 k j :=
    fun k => funext fun a => by match a with | ⟨0, _⟩ => rfl | ⟨1, _⟩ => rfl
  have eB : idx_main_v2 (idx_main_v3 (ix2 r j)) = ix1 j := funext fun a => by match a with | ⟨0, _⟩ => rfl
  rw [val_main_v4_apply, val_main_v1_apply, val_main_v3_apply, val_main_v2_apply, sum_halves]
  simp only [eL, eR, eB, joined_lo, joined_hi]
  rfl

/-- The four column blocks of the gates. -/
theorem gate5_at (r : Fin 16384) (q : Fin 512) :
    val_main_v5 (F := Ideal) x0 x1 x3 x4 (ix2 r q)
      = gate (rowOf x0 r) (rowOf x1 r) (fun k => rowOf x3 (lo k)) (fun k => rowOf x3 (hi k)) (vecOf x4) (col 0 (by omega) q) := by
  rw [val_main_v5_apply]
  have e : idx_main_v5 (ix2 r q) = ix2 r (col 0 (by omega) q) :=
    funext fun a => by match a with | ⟨0, _⟩ => rfl | ⟨1, _⟩ => exact Fin.ext (by show q.val = 0 + q.val; omega)
  rw [e, gate_at]
theorem gate6_at (r : Fin 16384) (q : Fin 512) :
    val_main_v6 (F := Ideal) x0 x1 x3 x4 (ix2 r q)
      = gate (rowOf x0 r) (rowOf x1 r) (fun k => rowOf x3 (lo k)) (fun k => rowOf x3 (hi k)) (vecOf x4) (col 512 (by omega) q) := by
  rw [val_main_v6_apply]
  have e : idx_main_v6 (ix2 r q) = ix2 r (col 512 (by omega) q) :=
    funext fun a => by match a with | ⟨0, _⟩ => rfl | ⟨1, _⟩ => rfl
  rw [e, gate_at]
theorem gate7_at (r : Fin 16384) (q : Fin 512) :
    val_main_v7 (F := Ideal) x0 x1 x3 x4 (ix2 r q)
      = gate (rowOf x0 r) (rowOf x1 r) (fun k => rowOf x3 (lo k)) (fun k => rowOf x3 (hi k)) (vecOf x4) (col 1024 (by omega) q) := by
  rw [val_main_v7_apply]
  have e : idx_main_v7 (ix2 r q) = ix2 r (col 1024 (by omega) q) :=
    funext fun a => by match a with | ⟨0, _⟩ => rfl | ⟨1, _⟩ => rfl
  rw [e, gate_at]
theorem gate8_at (r : Fin 16384) (q : Fin 512) :
    val_main_v8 (F := Ideal) x0 x1 x3 x4 (ix2 r q)
      = gate (rowOf x0 r) (rowOf x1 r) (fun k => rowOf x3 (lo k)) (fun k => rowOf x3 (hi k)) (vecOf x4) (col 1536 (by omega) q) := by
  rw [val_main_v8_apply]
  have e : idx_main_v8 (ix2 r q) = ix2 r (col 1536 (by omega) q) :=
    funext fun a => by match a with | ⟨0, _⟩ => rfl | ⟨1, _⟩ => rfl
  rw [e, gate_at]

/-- The reference's spelling of the logistic function of a gate: one over one plus the exponential of minus it. -/
theorem logistic_spelt (g : EReal) :
    Ideal.div (Ideal.ofBits .f32 0x3F800000#32) (Ideal.ofBits .f32 0x3F800000#32 + Ideal.exp (-g)) = Ideal.logistic g := by
  rw [one_word]; rfl

/-- The input, forget and output gates, and the candidate. -/
theorem in_gate_at (r : Fin 16384) (q : Fin 512) :
    val_main_v14 (F := Ideal) x0 x1 x3 x4 (ix2 r q)
      = Ideal.logistic (gate (rowOf x0 r) (rowOf x1 r) (fun k => rowOf x3 (lo k)) (fun k => rowOf x3 (hi k)) (vecOf x4) (col 0 (by omega) q)) := by
  rw [val_main_v14_apply, val_main_v13_apply, val_main_cst_0_apply, val_main_v12_apply, val_main_v11_apply, val_main_cst_apply,
    val_main_v10_apply, val_main_v9_apply, gate5_at]
  exact logistic_spelt _
theorem forget_gate_at (r : Fin 16384) (q : Fin 512) :
    val_main_v20 (F := Ideal) x0 x1 x3 x4 (ix2 r q)
      = Ideal.logistic (gate (rowOf x0 r) (rowOf x1 r) (fun k => rowOf x3 (lo k)) (fun k => rowOf x3 (hi k)) (vecOf x4) (col 512 (by omega) q)) := by
  rw [val_main_v20_apply, val_main_v19_apply, val_main_cst_2_apply, val_main_v18_apply, val_main_v17_apply, val_main_cst_1_apply,
    val_main_v16_apply, val_main_v15_apply, gate6_at]
  exact logistic_spelt _
theorem out_gate_at (r : Fin 16384) (q : Fin 512) :
    val_main_v27 (F := Ideal) x0 x1 x3 x4 (ix2 r q)
      = Ideal.logistic (gate (rowOf x0 r) (rowOf x1 r) (fun k => rowOf x3 (lo k)) (fun k => rowOf x3 (hi k)) (vecOf x4) (col 1536 (by omega) q)) := by
  rw [val_main_v27_apply, val_main_v26_apply, val_main_cst_4_apply, val_main_v25_apply, val_main_v24_apply, val_main_cst_3_apply,
    val_main_v23_apply, val_main_v22_apply, gate8_at]
  exact logistic_spelt _
theorem cand_at (r : Fin 16384) (q : Fin 512) :
    val_main_v21 (F := Ideal) x0 x1 x3 x4 (ix2 r q)
      = Ideal.tanh (gate (rowOf x0 r) (rowOf x1 r) (fun k => rowOf x3 (lo k)) (fun k => rowOf x3 (hi k)) (vecOf x4) (col 1024 (by omega) q)) := by
  rw [val_main_v21_apply, gate7_at]
  rfl

/-! ## The attention scores, their row maximum, and the softmax weights -/

theorem scores_at (r : Fin 16384) (n : Fin 4096) :
    val_main_v31 (F := Ideal) x1 x5 x6 (ix2 r n) = logit (rowOf x1 r) (rowOf x5) (vecOf x6) n := by
  have eL : ∀ k : Fin 512, lidx_main_v28 (ix2 r n) k = ix2 r k :=
    fun k => funext fun a => by match a with | ⟨0, _⟩ => rfl | ⟨1, _⟩ => rfl
  have eR : ∀ k : Fin 512, ridx_main_v28 (ix2 r n) k = ix2 k n :=
    fun k => funext fun a => by match a with | ⟨0, _⟩ => rfl | ⟨1, _⟩ => rfl
  have eB : idx_main_v29 (idx_main_v30 (ix2 r n)) = ix1 n := funext fun a => by match a with | ⟨0, _⟩ => rfl
  rw [val_main_v31_apply, val_main_v28_apply, val_main_v30_apply, val_main_v29_apply]
  simp only [eL, eR, eB]
  rfl

/-- The reduce over the 4096 columns with a maximum body, at row r: the fold of max over row r from the initial word. -/
theorem rowmax_at (r : Fin 16384) :
    val_main_v32 (F := Ideal) x1 x5 x6 (ix1 r) = top (logit (rowOf x1 r) (rowOf x5) (vecOf x6)) :=
  (Host.reduce_eq_fold_single (FloatOps.maximumf (F := Ideal) (φ := .f32)) (val_main_v31 (F := Ideal) x1 x5 x6) (val_main_cst_5 (F := Ideal))
      reducesTo_S16384x4096_S16384_d1 (by decide) h_S_ (ix1 r)).trans
    (congrArg (fun f : Fin 4096 → EReal => Finset.fold max (Ideal.ofBits .f32 0xFF800000#32) f Finset.univ)
      (funext fun n => (congrArg (val_main_v31 (F := Ideal) x1 x5 x6)
        (funext fun a => Fin.ext (by match a with | ⟨0, _⟩ => rfl | ⟨1, _⟩ => rfl))).trans (scores_at x1 x5 x6 r n)))

/-- Taking the maximum once more against the fold's own starting value changes nothing. -/
theorem rowmax'_at (r : Fin 16384) :
    val_main_v34 (F := Ideal) x1 x5 x6 (ix1 r) = top (logit (rowOf x1 r) (rowOf x5) (vecOf x6)) := by
  rw [val_main_v34_apply, val_main_v33_apply, val_main_cst_6_apply, rowmax_at]
  exact max_eq_right (init_le_top _)

theorem ex_at (r : Fin 16384) (n : Fin 4096) :
    val_main_v38 (F := Ideal) x1 x5 x6 (ix2 r n) = ex (logit (rowOf x1 r) (rowOf x5) (vecOf x6)) n := by
  have e : idx_main_v35 (idx_main_v36 (ix2 r n)) = ix1 r := funext fun a => by match a with | ⟨0, _⟩ => rfl
  rw [val_main_v38_apply, val_main_v37_apply, val_main_v36_apply, val_main_v35_apply, e, rowmax'_at, scores_at]
  rfl

theorem den_at (r : Fin 16384) :
    val_main_v39 (F := Ideal) x1 x5 x6 (ix1 r) = ∑ n : Fin 4096, ex (logit (rowOf x1 r) (rowOf x5) (vecOf x6)) n := by
  have e : ∀ k : Fin 4096, idx_main_v39 (ix1 r) k = ix2 r k :=
    fun k => funext fun a => by match a with | ⟨0, _⟩ => rfl | ⟨1, _⟩ => rfl
  rw [val_main_v39_apply, val_main_cst_7_apply]
  simp only [e, ex_at]
  show Ideal.ofBits .f32 0x00000000#32 + _ = _
  rw [Ideal.ofBits_zero_f32, zero_add]

theorem weight_at (r : Fin 16384) (n : Fin 4096) :
    val_main_v42 (F := Ideal) x1 x5 x6 (ix2 r n) = weight (logit (rowOf x1 r) (rowOf x5) (vecOf x6)) n := by
  have e : idx_main_v40 (idx_main_v41 (ix2 r n)) = ix1 r := funext fun a => by match a with | ⟨0, _⟩ => rfl
  rw [val_main_v42_apply, val_main_v41_apply, val_main_v40_apply, e, den_at, ex_at]
  rfl

/-! ## The memory read, the new cell state and the new hidden state -/

theorem read_at (r : Fin 16384) (q : Fin 512) :
    val_main_v43 (F := Ideal) x1 x5 x6 x7 (ix2 r q) = read (rowOf x1 r) (rowOf x5) (vecOf x6) (rowOf x7) q := by
  have eL : ∀ k : Fin 4096, lidx_main_v43 (ix2 r q) k = ix2 r k :=
    fun k => funext fun a => by match a with | ⟨0, _⟩ => rfl | ⟨1, _⟩ => rfl
  have eR : ∀ k : Fin 4096, ridx_main_v43 (ix2 r q) k = ix2 k q :=
    fun k => funext fun a => by match a with | ⟨0, _⟩ => rfl | ⟨1, _⟩ => rfl
  rw [val_main_v43_apply]
  simp only [eL, eR, weight_at]
  rfl

theorem cell_at (r : Fin 16384) (q : Fin 512) :
    val_main_v49 (F := Ideal) x0 x1 x2 x3 x4 x5 x6 x7 (ix2 r q)
      = cell (rowOf x0 r) (rowOf x1 r) (rowOf x2 r) (fun k => rowOf x3 (lo k)) (fun k => rowOf x3 (hi k)) (vecOf x4)
          (rowOf x5) (vecOf x6) (rowOf x7) q := by
  rw [val_main_v49_apply, val_main_v46_apply, val_main_v44_apply, val_main_v45_apply, val_main_v48_apply, val_main_v47_apply,
    val_main_cst_8_apply, forget_gate_at, in_gate_at, cand_at, read_at]
  rfl

theorem hidden_at (r : Fin 16384) (q : Fin 512) :
    val_main_v51 (F := Ideal) x0 x1 x2 x3 x4 x5 x6 x7 (ix2 r q)
      = hidden (rowOf x0 r) (rowOf x1 r) (rowOf x2 r) (fun k => rowOf x3 (lo k)) (fun k => rowOf x3 (hi k)) (vecOf x4)
          (rowOf x5) (vecOf x6) (rowOf x7) q := by
  rw [val_main_v51_apply, val_main_v50_apply, out_gate_at, cell_at]
  rfl

/-! ## The three results as whole arrays -/

theorem attn_eq : val_main_v42 (F := Ideal) x1 x5 x6 = attnAll x1 x5 x6 :=
  funext fun i => by rw [eq_ix2 i]; exact weight_at x1 x5 x6 _ _

theorem cell_eq : val_main_v49 (F := Ideal) x0 x1 x2 x3 x4 x5 x6 x7 = cellAll x0 x1 x2 x3 x4 x5 x6 x7 :=
  funext fun i => by rw [eq_ix2 i]; exact cell_at x0 x1 x2 x3 x4 x5 x6 x7 _ _

theorem hidden_eq : val_main_v51 (F := Ideal) x0 x1 x2 x3 x4 x5 x6 x7 = hiddenAll x0 x1 x2 x3 x4 x5 x6 x7 :=
  funext fun i => by rw [eq_ix2 i]; exact hidden_at x0 x1 x2 x3 x4 x5 x6 x7 _ _

end Cert.RefRow

end
-- ==== Proof.lean ====
/-
  An LSTM step with an attention read over a memory, for 16384 batch rows at once: the kernel against its array-program
  reference, over the extended reals.

  Per batch row both programs compute the same thing: 2048 gate pre-activations from the row's input and hidden state,
  4096 attention scores from the hidden state, the softmax of the scores, a memory read weighted by it, the new cell state
  from the gates, the old cell state and the read, and the new hidden state from the output gate and the new cell state.
  They differ in arrangement only. The kernel works on tiles of 128 rows with the gate matrix cut into its input half and
  its hidden half; the reference joins input and hidden state into one 1024-wide row and contracts it with the whole gate
  matrix, so the one law used is that a sum of 1024 terms is the sum of its two halves (true in any additive commutative
  monoid, hence with no finiteness assumption). The logistic function, which the kernel applies as one operation and the
  reference spells as 1 / (1 + exp (−g)), is that expression by definition; the reference's second maximum against −∞ is
  absorbed by the fold it follows; and the two-byte number format the kernel feeds its matrix unit with is the identity
  on exact values.

  The modules: `Spec` states the row functions and the whole-array results; `KernelRow` reads the kernel body's values at
  a block entry; `KernelValue` passes from blocks to the three output arrays; `RefRow` reads the reference's stages at
  an entry. Below, the three frames, and the two runs ending at the same three arrays.
-/
import proofs.«136633_j86174223827709_2_alg».proof.Defs
import proofs.«136633_j86174223827709_2_alg».proof.Proof.Gen.Kernel
import proofs.«136633_j86174223827709_2_alg».proof.Proof.Gen.Kernel.Skeleton
import proofs.«136633_j86174223827709_2_alg».proof.Proof.Gen.Kernel.Launch
import proofs.«136633_j86174223827709_2_alg».proof.Proof.Gen.Kernel.Points
import proofs.«136633_j86174223827709_2_alg».proof.Proof.Gen.Kernel.Frame
import proofs.«136633_j86174223827709_2_alg».proof.Proof.Gen.KernelIdeal
import proofs.«136633_j86174223827709_2_alg».proof.Proof.Gen.KernelIdeal.Skeleton
import proofs.«136633_j86174223827709_2_alg».proof.Proof.Gen.KernelIdeal.Launch
import proofs.«136633_j86174223827709_2_alg».proof.Proof.Gen.KernelIdeal.Points
import proofs.«136633_j86174223827709_2_alg».proof.Proof.Gen.KernelIdeal.Frame
import proofs.«136633_j86174223827709_2_alg».proof.Proof.Gen.ReferenceIdeal
import proofs.«136633_j86174223827709_2_alg».proof.Proof.Gen.Pre_finite_inputs
import proofs.«136633_j86174223827709_2_alg».proof.Proof.Gen.KernelIdeal.Value
import proofs.«136633_j86174223827709_2_alg».proof.Proof.Gen.ReferenceIdeal.Run
import proofs.«136633_j86174223827709_2_alg».proof.Proof.Gen.ReferenceIdeal.Read
import proofs.«136633_j86174223827709_2_alg».proof.Proof.Spec
import proofs.«136633_j86174223827709_2_alg».proof.Proof.KernelValue
import proofs.«136633_j86174223827709_2_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the results dropped. -/
theorem frame_reference_ideal : Cert.frame_ReferenceIdeal := fun m ρ _ =>
  (θ_run Cert.ReferenceIdeal.defs _ _).mono (fun _ h c => (h c).2.2.2) (Cert.ReferenceIdeal.Value.run (F := Ideal) m ρ)

/-- Both programs, run from memories that agree on the eight arguments, end with the new hidden state, the new cell state
    and the attention weights of those arguments: the kernel by its tiles, the reference stage by stage. -/
theorem algebraic : Cert.algebraic_KernelIdeal_ReferenceIdeal := by
  intro m ρ m' ρ' _ hagree
  refine ⟨_, _, _, Cert.KernelValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v51_eq m' c).trans ((Cert.RefRow.hidden_eq _ _ _ _ _ _ _ _).trans ?_)
    obtain ⟨a0, a1, a2, a3, a4, a5, a6, a7⟩ := hagree c
    rw [a0, a1, a2, a3, a4, a5, a6, a7]
  · refine (Cert.ReferenceIdeal.Read.val_main_v49_eq m' c).trans ((Cert.RefRow.cell_eq _ _ _ _ _ _ _ _).trans ?_)
    obtain ⟨a0, a1, a2, a3, a4, a5, a6, a7⟩ := hagree c
    rw [a0, a1, a2, a3, a4, a5, a6, a7]
  · refine (Cert.ReferenceIdeal.Read.val_main_v42_eq _ _ _).trans ((Cert.RefRow.attn_eq _ _ _).trans ?_)
    obtain ⟨a0, a1, a2, a3, a4, a5, a6, a7⟩ := hagree c
    rw [a1, a5, a6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
